-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S11008x4096 : Shape := ⟨2, ![11008, 4096]⟩
abbrev S11008 : Shape := ⟨1, ![11008]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x4096 .f32) (main_arg1 : IVec S11008x4096 32) (main_arg2 : FVec F S11008 .f32) (main_arg3 : FVec F S11008 .f32) : IVec S_ 1 :=
  let main_v0 : FVec F S4x4096 .f32 := Host.absf main_arg0
  let main_cst : FVec F S_ .f32 := constant S_ .f32 0x7F800000#32
  let main_v1 : FVec F S4x4096 .f32 := broadcastInDim S4x4096 ![] bcast_S_S4x4096 main_cst
  let main_v2 : IVec S4x4096 1 := cmpf .olt main_v0 main_v1
  let main_c : IVec S_ 1 := constantI S_ 1 1#1
  let main_v3 : IVec S_ 1 := (fun x v => Host.reduce IntOp.andi x v reducesTo_S4x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x4096 : Shape := ⟨2, ![4, 4096]⟩
abbrev S11008x4096 : Shape := ⟨2, ![11008, 4096]⟩
abbrev S11008 : Shape := ⟨1, ![11008]⟩
abbrev S1x11008 : Shape := ⟨2, ![1, 11008]⟩
abbrev S4x11008 : Shape := ⟨2, ![4, 11008]⟩
abbrev S512x4096 : Shape := ⟨2, ![512, 4096]⟩
abbrev S1x512 : Shape := ⟨2, ![1, 512]⟩
abbrev S4x512 : Shape := ⟨2, ![4, 512]⟩

abbrev nBuf : Space → Nat
  | .hbm => 7
  | .vmem => 9
  | .smem => 0
  | _ => 0

abbrev bufTy : (tb : Table) → Fin (tcTables nBuf tb) → BufTy
  | .hbm, ⟨0, _⟩ => ⟨S4x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S1x11008, .f32⟩
  | .hbm, ⟨5, _⟩ => ⟨S1x11008, .f32⟩
  | .hbm, ⟨6, _⟩ => ⟨S4x11008, .f32⟩
  | .local _ .vmem, ⟨0, _⟩ => ⟨S4x4096, .f32⟩
  | .local _ .vmem, ⟨1, _⟩ => ⟨S512x4096, .i32⟩
  | .local _ .vmem, ⟨2, _⟩ => ⟨S512x4096, .i32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S4x512, .f32⟩
  | .local _ .vmem, ⟨8, _⟩ => ⟨S4x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S11008_S1x11008 : S11008.ShapeCasts S1x11008
  inb_S4x4096_S4x4096_0_0 : ∀ a, (![0, 0] : Fin 2 → Nat) a + S4x4096.size a ≤ S4x4096.size a
  h_S4x4096 : 0 < S4x4096.numel
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4x512 : S1x512.Broadcasts S4x512
  inb_S4x512_S4x512_0_0 : ∀ a, (![0, 0] : Fin 2 → Nat) a + S4x512.size a ≤ S4x512.size a
  h_S4x512 : 0 < S4x512.numel
  dot_S4x4096_S512x4096_S4x512_1_1_0_0_n_n_wf : DotDims.WF S4x4096 S512x4096 S4x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x4096.size a ≤ S4x4096.size a
  hwx0_0 : ∀ i : grid0.Coords, EltTy.bits .f32 = 32 ∨ (Rect.block (s := S4x4096) S4x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x4096.size a < S11008x4096.size a
  hwx0_1 : ∀ i : grid0.Coords, EltTy.bits .i32 = 32 ∨ (Rect.unit (s := S11008x4096) (fun a => cc0_transform_1 i a * S512x4096.size a) (fun a => (Pipeline.Clip.of (cc0_transform_1 i a) (S512x4096.size a) (S11008x4096.size a)).extent (S512x4096.size a)) fun a => Pipeline.Clip.inb (Pipeline.Clip.ok_of (hstart0_1 i a))).WholeWords (EltTy.packing .i32)
  hwxs0_1 : ∀ i : grid0.Coords, EltTy.bits .i32 = 32 ∨ (Rect.unit (s := S512x4096) (fun _ => 0) (fun a => (Pipeline.Clip.of (cc0_transform_1 i a) (S512x4096.size a) (S11008x4096.size a)).extent (S512x4096.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x512.size a < S1x11008.size a
  hwx0_2 : ∀ i : grid0.Coords, EltTy.bits .f32 = 32 ∨ (Rect.unit (s := S1x11008) (fun a => cc0_transform_2 i a * S1x512.size a) (fun a => (Pipeline.Clip.of (cc0_transform_2 i a) (S1x512.size a) (S1x11008.size a)).extent (S1x512.size a)) fun a => Pipeline.Clip.inb (Pipeline.Clip.ok_of (hstart0_2 i a))).WholeWords (EltTy.packing .f32)
  hwxs0_2 : ∀ i : grid0.Coords, EltTy.bits .f32 = 32 ∨ (Rect.unit (s := S1x512) (fun _ => 0) (fun a => (Pipeline.Clip.of (cc0_transform_2 i a) (S1x512.size a) (S1x11008.size a)).extent (S1x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x512.size a < S1x11008.size a
  hwx0_3 : ∀ i : grid0.Coords, EltTy.bits .f32 = 32 ∨ (Rect.unit (s := S1x11008) (fun a => cc0_transform_3 i a * S1x512.size a) (fun a => (Pipeline.Clip.of (cc0_transform_3 i a) (S1x512.size a) (S1x11008.size a)).extent (S1x512.size a)) fun a => Pipeline.Clip.inb (Pipeline.Clip.ok_of (hstart0_3 i a))).WholeWords (EltTy.packing .f32)
  hwxs0_3 : ∀ i : grid0.Coords, EltTy.bits .f32 = 32 ∨ (Rect.unit (s := S1x512) (fun _ => 0) (fun a => (Pipeline.Clip.of (cc0_transform_3 i a) (S1x512.size a) (S1x11008.size a)).extent (S1x512.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S4x512.size a < S4x11008.size a
  hwx0_4 : ∀ i : grid0.Coords, EltTy.bits .f32 = 32 ∨ (Rect.unit (s := S4x11008) (fun a => cc0_transform_4 i a * S4x512.size a) (fun a => (Pipeline.Clip.of (cc0_transform_4 i a) (S4x512.size a) (S4x11008.size a)).extent (S4x512.size a)) fun a => Pipeline.Clip.inb (Pipeline.Clip.ok_of (hstart0_4 i a))).WholeWords (EltTy.packing .f32)
  hwxs0_4 : ∀ i : grid0.Coords, EltTy.bits .f32 = 32 ∨ (Rect.unit (s := S4x512) (fun _ => 0) (fun a => (Pipeline.Clip.of (cc0_transform_4 i a) (S4x512.size a) (S4x11008.size a)).extent (S4x512.size a)) fun a => (Nat.zero_add _).trans_le (Pipeline.Clip.extent_le (Pipeline.Clip.ok_of (hstart0_4 i a)))).WholeWords (EltTy.packing .f32)

variable [Facts₀]

def dot_S4x4096_S512x4096_S4x512_1_1_0_0_n_n : DotDims S4x4096 S512x4096 S4x512 where
  lhsContracting := [1]
  rhsContracting := [1]
  lhsNonContracting := [0]
  rhsNonContracting := [0]
  lhsBatch := []
  rhsBatch := []
  wf := dot_S4x4096_S512x4096_S4x512_1_1_0_0_n_n_wf

abbrev win0_0 : Pipeline.Window sig grid0 :=
  Pipeline.Window.ofSpec (Memref.whole main_arg0) S4x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1x512.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v2) S4x512.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096 : Shape := ⟨2, ![4, 4096]⟩
abbrev S11008x4096 : Shape := ⟨2, ![11008, 4096]⟩
abbrev S11008 : Shape := ⟨1, ![11008]⟩
abbrev S11008x1 : Shape := ⟨2, ![11008, 1]⟩
abbrev S4x11008 : Shape := ⟨2, ![4, 11008]⟩
abbrev S1x11008 : Shape := ⟨2, ![1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008x4096, .f32⟩
  | .hbm, ⟨5, _⟩ => ⟨S11008x1, .f32⟩
  | .hbm, ⟨6, _⟩ => ⟨S11008x4096, .f32⟩
  | .hbm, ⟨7, _⟩ => ⟨S11008x4096, .f32⟩
  | .hbm, ⟨8, _⟩ => ⟨S4x11008, .f32⟩
  | .hbm, ⟨9, _⟩ => ⟨S1x11008, .f32⟩
  | .hbm, ⟨10, _⟩ => ⟨S4x11008, .f32⟩
  | .hbm, ⟨11, _⟩ => ⟨S4x11008, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x11008_1 : S11008.BroadcastsInDim S1x11008 (![1] : Fin 1 → Fin S1x11008.rank)
  bcast_S1x11008_S4x11008_0_1 : S1x11008.BroadcastsInDim S4x11008 (![0, 1] : Fin 2 → Fin S4x11008.rank)
  dot_S4x4096_S11008x4096_S4x11008_1_1_0_0_n_n_wf : DotDims.WF S4x4096 S11008x4096 S4x11008 [1] [1] [0] [0] [] []

variable [Facts₀]

def dot_S4x4096_S11008x4096_S4x11008_1_1_0_0_n_n : DotDims S4x4096 S11008x4096 S4x11008 where
  lhsContracting := [1]
  rhsContracting := [1]
  lhsNonContracting := [0]
  rhsNonContracting := [0]
  lhsBatch := []
  rhsBatch := []
  wf := dot_S4x4096_S11008x4096_S4x11008_1_1_0_0_n_n_wf

class Facts : Prop extends Facts₀ where

variable [Facts]
-- ==== Proof.BodyRunBits.lean ====
/-
  The kernel body as one step of the pipeline: on whole staging buffers holding an activation block `x`
  (4 × 4096), an integer weight block `w` (512 × 4096), a scale row `s` and a bias row `β` (1 × 512 each),
  and an output buffer holding anything, the body loads the four blocks whole, and stores whole into the output
  buffer the value  (x · wᵀ) ⊙ s + β  (the generated payload `k0_pay1` of the four loads); the four input
  buffers end as they were. Nothing here depends on how a float is read: the statement holds at every instance.
-/
import proofs.«109778_j57561151701240_2_alg».proof.Proof.Gen.Kernel.Frame
import proofs.«109778_j57561151701240_2_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's five accesses: each the whole of its buffer -/

abbrev rX : Rect S4x4096 := Rect.unit (s := S4x4096) ![0, 0] S4x4096.size inb_S4x4096_S4x4096_0_0
abbrev rW : Rect S512x4096 := Rect.unit (s := S512x4096) ![0, 0] S512x4096.size inb_S512x4096_S512x4096_0_0
abbrev rRow : Rect S1x512 := Rect.unit (s := S1x512) ![0, 0] S1x512.size inb_S1x512_S1x512_0_0
abbrev rOut : Rect S4x512 := Rect.unit (s := S4x512) ![0, 0] S4x512.size inb_S4x512_S4x512_0_0

/-- What the output buffer holds after the body, from the four input buffers' contents: its one store, of the
    payload of the four whole loads. -/
def stored (x : Vec F S4x4096 .f32) (w : Vec F S512x4096 .i32) (s β : Vec F S1x512 .f32) : Vec F S4x512 .f32 :=
  View.canon [⟨rOut, k0_pay1 (View.ld x rX) (View.ld w rW) (View.ld s rRow) (View.ld β rRow)⟩]

/-- The one store is of the whole buffer, so it covers it. -/
theorem stored_cover (p : Vec F S4x512 .f32) (y : S4x512.Idx) :
    ∃ pc ∈ ([⟨rOut, p⟩] : List (View.Piece (Elt F) S4x512 .f32)), y ∈ pc.1.set :=
  View.cover_of_tiled [⟨rOut, p⟩] S4x512.size (by rfl) y

/-- A whole-buffer load reads the contents, and a whole-buffer store leaves the payload: the output buffer ends
    at the payload of the four buffers' contents. -/
theorem stored_eq (x : Vec F S4x4096 .f32) (w : Vec F S512x4096 .i32) (s β : Vec F S1x512 .f32) :
    stored x w s β = k0_pay1 x w s β := by
  have hz : (![0, 0] : Fin 2 → Nat) = fun _ => 0 := funext fun a => by fin_cases a <;> rfl
  unfold stored
  rw [View.canon_unit_zero hz]
  simp only [View.ld_unit_zero (S := S4x4096) hz, View.ld_unit_zero (S := S512x4096) hz, View.ld_unit_zero (S := S1x512) hz]

set_option maxHeartbeats 1000000 in
/-- The body's triple, on any whole staging memrefs. -/
theorem kernelRun (c : Dev nD) (E : Set ℕ) (i : grid0.Coords)
    (arg1 : Memref sig .tc .vmem S4x4096 .f32) (harg1 : arg1.IsWhole) (arg2 : Memref sig .tc .vmem S512x4096 .i32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S4x512 .f32) (harg5 : arg5.IsWhole)
    (x : Vec F S4x4096 .f32) (w : Vec F S512x4096 .i32) (s β : Vec F S1x512 .f32) (K : PUnit → sProp 𝕄) :
    iprop(owns (c : Thread nD τ) arg1 fullShare x ∗ owns (c : Thread nD τ) arg2 fullShare w ∗ owns (c : Thread nD τ) arg3 fullShare s
        ∗ owns (c : Thread nD τ) arg4 fullShare β ∗ (∃ d, owns (c : Thread nD τ) arg5 fullShare d)
        ∗ (iprop(owns (c : Thread nD τ) arg1 fullShare x ∗ owns (c : Thread nD τ) arg2 fullShare w ∗ owns (c : Thread nD τ) arg3 fullShare s
            ∗ owns (c : Thread nD τ) arg4 fullShare β ∗ owns (c : Thread nD τ) arg5 fullShare (k0_pay1 x w s β)) -∗ K ⟨⟩))
      ⊢ wp frame (wpE (defs₀ (F := F)) Variants.none c none) E (cc0__qlinear_kernel i arg1 harg1 arg2 harg2 arg3 harg3 arg4 harg4 arg5 harg5) K := by
  rw [← stored_eq x w s β]
  simp only [cc0__qlinear_kernel_eq_skeleton]; unfold cc0__qlinear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_cover _)

end Cert.Kernel.Body

end
-- ==== Proof.FrameBits.lean ====
/-
  The word-level kernel, at any reading of floats: every execution terminates, faults nowhere, and leaves the
  four argument arrays as they were.

  The grid has 22 points; point `t` stages the whole activation matrix, weight rows 512·t … 512·t + 511, and
  columns 512·t … 512·t + 511 of the scale row, the bias row and the output. 11008 = 21·512 + 256, so at the
  last point the weight, scale, bias and output blocks overhang their arrays: a fetch fills only the part of the
  staging buffer inside the array and leaves the rest at contents nothing names.

  Nothing is said here of the values the body computes. The output window is FORGOTTEN: its staging buffer is
  handed to the body at any contents and taken back at any contents, so the only facts used of the body are that
  it runs, and that it hands the four input buffers back as it found them. The arrays of the two inputs a window
  stages directly (activations, weights) are never written; the other two arguments (scales, bias) are staged
  through reshaped copies, are in no window, and keep their contents as the region found them.
-/
import proofs.«109778_j57561151701240_2_alg».proof.Proof.BodyRunBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one window whose contents are not named: the output (window 4). -/
def forgets : Fin 5 → Bool := fun w => w.val == 4

theorem forgets_0 : forgets 0 = false := rfl
theorem forgets_1 : forgets 1 = false := rfl
theorem forgets_2 : forgets 2 = false := rfl
theorem forgets_3 : forgets 3 = false := rfl
theorem forgets_4 : forgets 4 = true := rfl

/-- Contents nothing reads: what fills a staging buffer past the array's end in the statements below. -/
def pad {s : Shape} {e : EltTy} : s.Idx → Elt F e := fun _ => Classical.arbitrary _

/-- The proof data of the one pipeline on core `c`: the arrays as the region finds them; after the body at point
    `t` the activation buffer at its block, the three clipped input buffers at their blocks (filled out with
    `pad`), the output buffer at contents nothing names; nothing carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) pad (iblk m c 1 t)
    | ⟨2, _⟩ => win0_2.fill (grid0.coords t) pad (iblk m c 2 t)
    | ⟨3, _⟩ => win0_3.fill (grid0.coords t) pad (iblk m c 3 t)
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) :
    (dats m 0 c).after 1 t = win0_1.fill (grid0.coords t) pad (iblk m c 1 t) := by dsimp only [dats]
theorem after2 (c : Dev nD) (t : Fin cfg0.N) :
    (dats m 0 c).after 2 t = win0_2.fill (grid0.coords t) pad (iblk m c 2 t) := by dsimp only [dats]
theorem after3 (c : Dev nD) (t : Fin cfg0.N) :
    (dats m 0 c).after 3 t = win0_3.fill (grid0.coords t) pad (iblk m c 3 t) := by dsimp only [dats]

/-! ## What the body finds in each input's staging buffer -/

/-- The activation buffer holds the whole activation matrix at every point (fetched once, never cut). -/
theorem before0 (c : Dev nD) (t : Fin cfg0.N) (d) : (dats m 0 c).before 0 t d = iblk m c 0 t :=
  before0_0_of m (dats m 0 c) (A_eq m c 0) (after0 m c) t d

/-- The weight buffer, fetched at every point, holds the block inside the array and `d` past its end. -/
theorem before1 (c : Dev nD) (t : Fin cfg0.N) (d) :
    (dats m 0 c).before 1 t d = win0_1.fill (grid0.coords t) d (iblk m c 1 t) := by
  rw [Dat.before_fetched _ 1 t (fetch0_1 t)]; unfold Dat.fetched Dat.blockOf iblk; rw [A_eq]
/-- The scale buffer likewise, -/
theorem before2 (c : Dev nD) (t : Fin cfg0.N) (d) :
    (dats m 0 c).before 2 t d = win0_2.fill (grid0.coords t) d (iblk m c 2 t) := by
  rw [Dat.before_fetched _ 2 t (fetch0_2 t)]; unfold Dat.fetched Dat.blockOf iblk; rw [A_eq]
/-- and the bias buffer. -/
theorem before3 (c : Dev nD) (t : Fin cfg0.N) (d) :
    (dats m 0 c).before 3 t d = win0_3.fill (grid0.coords t) d (iblk m c 3 t) := by
  rw [Dat.before_fetched _ 3 t (fetch0_3 t)]; unfold Dat.fetched Dat.blockOf iblk; rw [A_eq]

/-! ## The body obligation -/

/-- At every point the body, handed the activation block, the three clipped blocks filled out with whatever the
    fetches left past the arrays' ends, and an output buffer holding anything, hands the four input buffers back
    as they were and the output buffer at some contents. -/
theorem body_obligation (c : Dev nD) :
    BodyObligationLoose (dats m 0 c) (defs₀ (F := F)) Variants.none () Set.univ forgets := fun t => by
  rw [bigSep_W0, bigSep_W0]
  simp only [forgets_0, forgets_1, forgets_2, forgets_3, forgets_4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0 m c t d0, before1 m c t d1, before2 m c t d2, before3 m c t d3]
  iapply (kernelRun (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (iblk m c 0 t)
    (win0_1.fill (grid0.coords t) d1 (iblk m c 1 t)) (win0_2.fill (grid0.coords t) d2 (iblk m c 2 t))
    (win0_3.fill (grid0.coords t) d3 (iblk m c 3 t)) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]
  · rw [after0]; iexact H0
  isplitl [H1]
  · iexists d1
    rw [after1, Window.cut_fill]; iexact H1
  isplitl [H2]
  · iexists d2
    rw [after2, Window.cut_fill]; iexact H2
  isplitl [H3]
  · iexists d3
    rw [after3, Window.cut_fill]; iexact H3
  · iexists _; iexact H4

/-! ## The run and the frame -/

set_option backward.isDefEq.respectTransparency.types false in
/-- Every weakly fair execution of the program terminates, faulting nowhere, with every input array of the
    pipeline at its contents at the region's entry, nothing stated of the output array, and every other unscoped
    buffer as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The run read at the four argument arrays: the activations and the weights are inputs of their windows, so
    they end at their contents at the region's entry; the scales and the bias are in no window, so they end as the
    region found them; and nothing before the region writes any of the four. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun (((dats m 0 c).toRForget forgets).ArrAt_in 0 rfl _) _) ((h c).1 0)).trans ((A_eq m c 0).trans (V_main_arg0 m c)),
      (Eq.mp (congrFun (((dats m 0 c).toRForget forgets).ArrAt_in 1 rfl _) _) ((h c).1 1)).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Kernel.Body

end
-- ==== Proof.BodyRunIdeal.lean ====
/-
  The kernel body as one step of the pipeline: on whole staging buffers holding an activation block `x`
  (4 × 4096), an integer weight block `w` (512 × 4096), a scale row `s` and a bias row `β` (1 × 512 each),
  and an output buffer holding anything, the body loads the four blocks whole, and stores whole into the output
  buffer the value  (x · wᵀ) ⊙ s + β  (the generated payload `k0_pay1` of the four loads); the four input
  buffers end as they were. Nothing here depends on how a float is read: the statement holds at every instance.
-/
import proofs.«109778_j57561151701240_2_alg».proof.Proof.Gen.KernelIdeal.Frame
import proofs.«109778_j57561151701240_2_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's five accesses: each the whole of its buffer -/

abbrev rX : Rect S4x4096 := Rect.unit (s := S4x4096) ![0, 0] S4x4096.size inb_S4x4096_S4x4096_0_0
abbrev rW : Rect S512x4096 := Rect.unit (s := S512x4096) ![0, 0] S512x4096.size inb_S512x4096_S512x4096_0_0
abbrev rRow : Rect S1x512 := Rect.unit (s := S1x512) ![0, 0] S1x512.size inb_S1x512_S1x512_0_0
abbrev rOut : Rect S4x512 := Rect.unit (s := S4x512) ![0, 0] S4x512.size inb_S4x512_S4x512_0_0

/-- What the output buffer holds after the body, from the four input buffers' contents: its one store, of the
    payload of the four whole loads. -/
def stored (x : Vec F S4x4096 .f32) (w : Vec F S512x4096 .i32) (s β : Vec F S1x512 .f32) : Vec F S4x512 .f32 :=
  View.canon [⟨rOut, k0_pay1 (View.ld x rX) (View.ld w rW) (View.ld s rRow) (View.ld β rRow)⟩]

/-- The one store is of the whole buffer, so it covers it. -/
theorem stored_cover (p : Vec F S4x512 .f32) (y : S4x512.Idx) :
    ∃ pc ∈ ([⟨rOut, p⟩] : List (View.Piece (Elt F) S4x512 .f32)), y ∈ pc.1.set :=
  View.cover_of_tiled [⟨rOut, p⟩] S4x512.size (by rfl) y

/-- A whole-buffer load reads the contents, and a whole-buffer store leaves the payload: the output buffer ends
    at the payload of the four buffers' contents. -/
theorem stored_eq (x : Vec F S4x4096 .f32) (w : Vec F S512x4096 .i32) (s β : Vec F S1x512 .f32) :
    stored x w s β = k0_pay1 x w s β := by
  have hz : (![0, 0] : Fin 2 → Nat) = fun _ => 0 := funext fun a => by fin_cases a <;> rfl
  unfold stored
  rw [View.canon_unit_zero hz]
  simp only [View.ld_unit_zero (S := S4x4096) hz, View.ld_unit_zero (S := S512x4096) hz, View.ld_unit_zero (S := S1x512) hz]

set_option maxHeartbeats 1000000 in
/-- The body's triple, on any whole staging memrefs. -/
theorem kernelRun (c : Dev nD) (E : Set ℕ) (i : grid0.Coords)
    (arg1 : Memref sig .tc .vmem S4x4096 .f32) (harg1 : arg1.IsWhole) (arg2 : Memref sig .tc .vmem S512x4096 .i32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S4x512 .f32) (harg5 : arg5.IsWhole)
    (x : Vec F S4x4096 .f32) (w : Vec F S512x4096 .i32) (s β : Vec F S1x512 .f32) (K : PUnit → sProp 𝕄) :
    iprop(owns (c : Thread nD τ) arg1 fullShare x ∗ owns (c : Thread nD τ) arg2 fullShare w ∗ owns (c : Thread nD τ) arg3 fullShare s
        ∗ owns (c : Thread nD τ) arg4 fullShare β ∗ (∃ d, owns (c : Thread nD τ) arg5 fullShare d)
        ∗ (iprop(owns (c : Thread nD τ) arg1 fullShare x ∗ owns (c : Thread nD τ) arg2 fullShare w ∗ owns (c : Thread nD τ) arg3 fullShare s
            ∗ owns (c : Thread nD τ) arg4 fullShare β ∗ owns (c : Thread nD τ) arg5 fullShare (k0_pay1 x w s β)) -∗ K ⟨⟩))
      ⊢ wp frame (wpE (defs₀ (F := F)) Variants.none c none) E (cc0__qlinear_kernel i arg1 harg1 arg2 harg2 arg3 harg3 arg4 harg4 arg5 harg5) K := by
  rw [← stored_eq x w s β]
  simp only [cc0__qlinear_kernel_eq_skeleton]; unfold cc0__qlinear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_cover _)

end Cert.KernelIdeal.Body

end
-- ==== Proof.PipelineIdeal.lean ====
/-
  The pipelined run of the kernel, for any reading of floats, given the array `R` the output is claimed to end
  at. The grid has 22 points; point `t` stages the whole activation matrix, weight rows 512·t … 512·t + 511,
  and columns 512·t … 512·t + 511 of the scale row, the bias row and the output. 11008 = 21·512 + 256, so at the
  last point the weight, scale, bias and output blocks overhang their arrays by 256 rows (columns): a fetch fills
  only the part of the staging buffer inside the array and leaves the rest at contents nothing names, and the
  write-back writes only the part inside the array.

  So what the body is handed in the three clipped input buffers is "the block where it lies inside the array,
  anything elsewhere", and the hypothesis `hR` is exactly what makes the output well defined all the same: on
  the part of the output block inside the array, the body's value — computed from the activation block and from
  the three clipped blocks filled out with ANY contents — is the corresponding block of `R`. Given that, every
  execution terminates, the four argument arrays end unchanged, and the output array ends equal to `R`: its 22
  blocks, cut at the array's end, tile it.
-/
import proofs.«109778_j57561151701240_2_alg».proof.Proof.BodyRunIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (R : (c : Dev nD) → Buf (Elt F) ((c : Thread nD τ).loc main_v2))

/-! ## The proof data -/

/-- Contents nothing reads: what fills a staging buffer past the array's end in the statements below. -/
def pad {s : Shape} {e : EltTy} : s.Idx → Elt F e := fun _ => Classical.arbitrary _

/-- The body's value at point `t` when the three clipped input buffers hold their blocks filled out with
    `d1`, `d2`, `d3` past the arrays' ends. -/
def valueAt (c : Dev nD) (t : Fin cfg0.N) (d1 : S512x4096.Idx → Elt F .i32) (d2 d3 : S1x512.Idx → Elt F .f32) : Vec F S4x512 .f32 :=
  k0_pay1 (iblk m c 0 t) (win0_1.fill (grid0.coords t) d1 (iblk m c 1 t)) (win0_2.fill (grid0.coords t) d2 (iblk m c 2 t))
    (win0_3.fill (grid0.coords t) d3 (iblk m c 3 t))

/-- The proof data of the one pipeline on core `c`: the arrays as the region finds them; after the body at point
    `t` the activation buffer at its block, the three clipped input buffers at their blocks (filled out with
    `pad`), the output buffer at block `t` of `R` (filled out likewise); nothing carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) pad (iblk m c 1 t)
    | ⟨2, _⟩ => win0_2.fill (grid0.coords t) pad (iblk m c 2 t)
    | ⟨3, _⟩ => win0_3.fill (grid0.coords t) pad (iblk m c 3 t)
    | ⟨4, _⟩ => win0_4.fill (grid0.coords t) pad ((win0_4.blk t).view.read (Elt F) (R c))
  Φ _ := Pipeline.ΦA spec0 c
  q _ := fullShare
  owed _ := 0

theorem A_eq (c : Dev nD) (w : Fin cfg0.W) : (dats m R 0 c).A w = V m c (Pipeline.arrRef spec0 w) := by
  dsimp only [dats]

theorem after0 (c : Dev nD) (t : Fin cfg0.N) : (dats m R 0 c).after 0 t = iblk m c 0 t := by dsimp only [dats]
theorem after1 (c : Dev nD) (t : Fin cfg0.N) :
    (dats m R 0 c).after 1 t = win0_1.fill (grid0.coords t) pad (iblk m c 1 t) := by dsimp only [dats]
theorem after2 (c : Dev nD) (t : Fin cfg0.N) :
    (dats m R 0 c).after 2 t = win0_2.fill (grid0.coords t) pad (iblk m c 2 t) := by dsimp only [dats]
theorem after3 (c : Dev nD) (t : Fin cfg0.N) :
    (dats m R 0 c).after 3 t = win0_3.fill (grid0.coords t) pad (iblk m c 3 t) := by dsimp only [dats]
theorem after4 (c : Dev nD) (t : Fin cfg0.N) :
    (dats m R 0 c).after 4 t = win0_4.fill (grid0.coords t) pad ((win0_4.blk t).view.read (Elt F) (R c)) := by dsimp only [dats]

/-! ## What the body finds in each staging buffer -/

/-- The activation buffer holds the whole activation matrix at every point (fetched once, never cut). -/
theorem before0 (c : Dev nD) (t : Fin cfg0.N) (d) : (dats m R 0 c).before 0 t d = iblk m c 0 t :=
  before0_0_of m (dats m R 0 c) (A_eq m R c 0) (after0 m R c) t d

/-- The weight buffer, fetched at every point, holds the block inside the array and `d` past its end. -/
theorem before1 (c : Dev nD) (t : Fin cfg0.N) (d) :
    (dats m R 0 c).before 1 t d = win0_1.fill (grid0.coords t) d (iblk m c 1 t) := by
  rw [Dat.before_fetched _ 1 t (fetch0_1 t)]; unfold Dat.fetched Dat.blockOf iblk; rw [A_eq]
/-- The scale buffer likewise, -/
theorem before2 (c : Dev nD) (t : Fin cfg0.N) (d) :
    (dats m R 0 c).before 2 t d = win0_2.fill (grid0.coords t) d (iblk m c 2 t) := by
  rw [Dat.before_fetched _ 2 t (fetch0_2 t)]; unfold Dat.fetched Dat.blockOf iblk; rw [A_eq]
/-- and the bias buffer. -/
theorem before3 (c : Dev nD) (t : Fin cfg0.N) (d) :
    (dats m R 0 c).before 3 t d = win0_3.fill (grid0.coords t) d (iblk m c 3 t) := by
  rw [Dat.before_fetched _ 3 t (fetch0_3 t)]; unfold Dat.fetched Dat.blockOf iblk; rw [A_eq]
/-- The output buffer, written back at every point, holds anything. -/
theorem before4 (c : Dev nD) (t : Fin cfg0.N) (d) : (dats m R 0 c).before 4 t d = d :=
  (dats m R 0 c).before_out_reset 4 rfl t
    (by by_cases h : t.val = 0
        · exact .inl h
        · exact .inr ⟨h, flush0_4 _⟩) d

/-! ## The body obligation -/

variable (hR : ∀ (c : Dev nD) (t : Fin cfg0.N) (d1 : S512x4096.Idx → Elt F .i32) (d2 d3 : S1x512.Idx → Elt F .f32),
  win0_4.cut (grid0.coords t) (valueAt m c t d1 d2 d3) = (win0_4.blk t).view.read (Elt F) (R c))

include hR in
/-- At every point the body, handed the activation block, the three clipped blocks filled out with whatever the
    fetches left past the arrays' ends, and an output buffer holding anything, hands the four input buffers back
    as they were and the output buffer at block `t` of `R` on its part inside the array (`hR`). -/
theorem body_obligation (c : Dev nD) : BodyObligationLoose (dats m R 0 c) (defs₀ (F := F)) Variants.none () Set.univ := fun t => by
  rw [bigSep_W0, bigSep_W0]
  simp only
  rw [show (dats m R 0 c).Φ t.succ = (dats m R 0 c).Φ t.castSucc from rfl,
    show (dats m R 0 c).owesAt () t.succ = (dats m R 0 c).owesAt () t.castSucc from rfl]
  iintro ⟨HΦ, Ho, ⟨%d0, H0⟩, ⟨%d1, H1⟩, ⟨%d2, H2⟩, ⟨%d3, H3⟩, ⟨%d4, H4⟩⟩
  rw [before0 m R c t d0, before1 m R c t d1, before2 m R c t d2, before3 m R c t d3, before4 m R c t d4]
  iapply (kernelRun (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (iblk m c 0 t)
    (win0_1.fill (grid0.coords t) d1 (iblk m c 1 t)) (win0_2.fill (grid0.coords t) d2 (iblk m c 2 t))
    (win0_3.fill (grid0.coords t) d3 (iblk m c 3 t)) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]
  · rw [after0]; iexact H0
  isplitl [H1]
  · iexists d1
    rw [after1, Window.cut_fill]; iexact H1
  isplitl [H2]
  · iexists d2
    rw [after2, Window.cut_fill]; iexact H2
  isplitl [H3]
  · iexists d3
    rw [after3, Window.cut_fill]; iexact H3
  · iexists valueAt m c t d1 d2 d3
    rw [after4, Window.cut_fill, ← hR c t d1 d2 d3, Window.fill_cut]; iexact H4

/-! ## The run, the frame, and the output array -/

set_option backward.isDefEq.respectTransparency.types false in
include hR in
/-- Every weakly fair execution of the program terminates, faulting nowhere, with every array of the pipeline at
    what the write-backs of the proof data leave and every other unscoped buffer as the region found it. -/
theorem run_main : θ_run defs (onTc (τ := τ) (main (F := F))) (s₀ m ρ) (Pipeline.FramePost cfgs (dats m R) 0 (V m)) :=
  Pipeline.θ_run_frame cfgs (dats m R) (0 : Fin 1) launch0 defs₀ Variants.none m ρ main
    (hbody := fun c => body_obligation m R hR c) (hshare := fun c => (dats m R 0 c).share_full fun _ => rfl)
    (howed := fun _ _ => rfl) (V := V m) (hmain := hmain m Variants.none) (hA := A_eq m R) (hΦ := fun _ _ => rfl)

/-- What point `t` writes back is block `t` of `R`, cut at the array's end. -/
theorem flushed4 (c : Dev nD) (t : Fin cfg0.N) :
    (dats m R 0 c).flushed 4 t = ((cfg0.win 4).blk t).view.read (Elt F) (R c) := by
  show (cfg0.win 4).cut (cfg0.grid.coords t) ((dats m R 0 c).after 4 t) = _
  rw [after4]; exact win0_4.cut_fill _ _ _

/-- The output window's block index and cut, point by point: block column `t`, all four rows, and of its 512
    columns those below the array's 11008. -/
theorem out_block_facts : ∀ t : Fin cfg0.N, win0_4.index t 0 = 0 ∧ win0_4.index t 1 = t.val
    ∧ win0_4.xsize (grid0.coords t) 0 = 4 ∧ win0_4.xsize (grid0.coords t) 1 = min 512 (11008 - 512 * t.val) :=
  (by decide +kernel : ∀ t : Fin grid0.N, win0_4.index t 0 = 0 ∧ win0_4.index t 1 = t.val
    ∧ win0_4.xsize (grid0.coords t) 0 = 4 ∧ win0_4.xsize (grid0.coords t) 1 = min 512 (11008 - 512 * t.val))

/-- An index of the output array lies in point `t`'s block iff its column is among the block's columns inside the
    array. -/
theorem mem_out_block (t : Fin cfg0.N) (i : S4x11008.Idx) :
    i ∈ ((cfg0.win 4).blk t).view.set ↔ 512 * t.val ≤ (i 1).val ∧ (i 1).val < 512 * t.val + min 512 (11008 - 512 * t.val) := by
  show i ∈ ((View.whole main_v2).slice (win0_4.rect t)).set ↔ _
  rw [View.set_slice_whole, Rect.mem_set_unit]
  obtain ⟨e0, e1, x0, x1⟩ := out_block_facts t
  have h0 : (i 0).val < 4 := (i 0).isLt
  constructor
  · intro h
    have := h 1
    change win0_4.index t 1 * 512 ≤ (i 1).val ∧ (i 1).val < win0_4.index t 1 * 512 + win0_4.xsize (grid0.coords t) 1 at this
    rw [e1, x1] at this; omega
  · intro h a
    match a with
    | ⟨0, _⟩ =>
      change win0_4.index t 0 * 4 ≤ (i 0).val ∧ (i 0).val < win0_4.index t 0 * 4 + win0_4.xsize (grid0.coords t) 0
      rw [e0, x0]; omega
    | ⟨1, _⟩ =>
      change win0_4.index t 1 * 512 ≤ (i 1).val ∧ (i 1).val < win0_4.index t 1 * 512 + win0_4.xsize (grid0.coords t) 1
      rw [e1, x1]; omega

/-- The 22 blocks, cut at the array's end, cover the output array: column `o` lies in block `o / 512`. -/
theorem out_cover (i : S4x11008.Idx) : ∃ t : Fin cfg0.N, (cfg0.win 4).flush t = true ∧ i ∈ ((cfg0.win 4).blk t).view.set := by
  have h1 : (i 1).val < 11008 := (i 1).isLt
  refine ⟨⟨(i 1).val / 512, by show (i 1).val / 512 < 22; omega⟩, flush0_4 _, ?_⟩
  rw [mem_out_block]
  show 512 * ((i 1).val / 512) ≤ (i 1).val ∧ (i 1).val < 512 * ((i 1).val / 512) + min 512 (11008 - 512 * ((i 1).val / 512))
  omega

/-- The output array after the run is `R`. -/
theorem final (c : Dev nD) : (dats m R 0 c).arrAt 4 cfg0.N = R c :=
  (dats m R 0 c).arrAt_eq_of_cover 4 (R c) (fun t _ => flushed4 m R c t) out_cover

include hR in
/-- The run read at the program's own buffers: the result array ends at `R`, the four arguments as launched. -/
theorem run : θ_run defs (onTc (τ := τ) (main (F := F))) ⟨m, fun _ => 0, ρ⟩ (fun r => ∀ c : Dev nD,
      r.2.mem ((c.tc : Thread nD τ).loc main_v2) = R c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m R c),
      ((h c).1 0).trans (((dats m R 0 c).arrAt_in 0 rfl _).trans ((A_eq m R c 0).trans (V_main_arg0 m c))),
      ((h c).1 1).trans (((dats m R 0 c).arrAt_in 1 rfl _).trans ((A_eq m R c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ R hR)

end Cert.KernelIdeal.Body

end
-- ==== Proof.LinearSpec.lean ====
/-
  The function both programs compute, and the law that joins their two arrangements of it.

  A linear layer with an integer weight matrix and one scale per output channel: for an activation
  row `b` and an output channel `o`,
      out[b, o] = (∑ₖ x[b, k] · q[o, k]) · s[o] + bias[o],
  the integer `q[o, k]` read signed and exactly. The kernel computes it in this arrangement (the scale
  applied once, after the sum); the reference scales every weight first, ∑ₖ x[b, k] · (q[o, k] · s[o]).
  On the extended reals the two agree when the activations and the scale are real numbers: then every
  factor is a real, the sums are real sums, and the scale moves across the sum by distributivity in ℝ.
  At an infinite scale or activation the two could differ (0 · ∞ conventions term by term), which is why the
  law asks for real arguments.
-/
import Idealize.ShloMosaic.PureOps.Ideal
import Idealize.ShloMosaic.Lib.ValueIdx

noncomputable section

namespace Cert.QuantLinear

open Idealize.ShloMosaic Idealize.ShloMosaic.ValueIdx

/-- The quantized linear layer as one function of its four argument arrays: entry `(b, o)` is the dot
    product of activation row `b` with integer weight row `o`, times channel `o`'s scale, plus channel
    `o`'s bias. -/
def scaledDot (x : (⟨2, ![4, 4096]⟩ : Shape).Idx → EReal) (q : (⟨2, ![11008, 4096]⟩ : Shape).Idx → BitVec 32)
    (s bias : (⟨1, ![11008]⟩ : Shape).Idx → EReal) : (⟨2, ![4, 11008]⟩ : Shape).Idx → EReal :=
  fun i => (∑ k : Fin 4096, x (ix2 (i 0) k) * (((q (ix2 (i 1) k)).toInt : ℝ) : EReal)) * s (ix1 (i 1)) + bias (ix1 (i 1))

theorem scaledDot_apply (x : (⟨2, ![4, 4096]⟩ : Shape).Idx → EReal) (q : (⟨2, ![11008, 4096]⟩ : Shape).Idx → BitVec 32)
    (s bias : (⟨1, ![11008]⟩ : Shape).Idx → EReal) (b : Fin 4) (o : Fin 11008) :
    scaledDot x q s bias (ix2 b o)
      = (∑ k : Fin 4096, x (ix2 b k) * (((q (ix2 o k)).toInt : ℝ) : EReal)) * s (ix1 o) + bias (ix1 o) := rfl

end Cert.QuantLinear

end
-- ==== Proof.ValueIdeal.lean ====
/-
  What the kernel computes, read as extended reals: the value of the body at an output entry, each staged block
  as rows and columns of the argument arrays, and from these the hypothesis of the pipelined run — at every grid
  point the part of the output block inside the array is the corresponding block of the quantized linear layer
  `scaledDot` of the four argument arrays, whatever fills the clipped staging buffers past the arrays' ends.

  The body's value at (b, o) is (∑ₖ x[b, k] · w[o, k]) · s[0, o] + β[0, o]: the matrix unit's product into a zero
  accumulator is the plain sum over the one contracted axis, a change of float format is the identity, an integer
  is read signed and exactly, and the scale and bias rows are broadcast down the four activation rows. Entry
  (b, o) of the block at point t depends on weight row o and on column o of the scale and bias rows only; when o
  lies inside the array so do they, and they are row (column) 512·t + o of the arguments.
-/
import proofs.«109778_j57561151701240_2_alg».proof.Proof.PipelineIdeal
import proofs.«109778_j57561151701240_2_alg».proof.Proof.LinearSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.IdealValue

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

/-! ## The body's value at an entry -/

theorem lhs_row (i : S4x512.Idx) (q : dot_S4x4096_S512x4096_S4x512_1_1_0_0_n_n.contr.Idx) :
    (dot_S4x4096_S512x4096_S4x512_1_1_0_0_n_n.lhsIdx i q 0).val = (i 0).val := by
  unfold DotDims.lhsIdx
  rw [dif_neg (show ¬(0 : Fin S4x4096.rank) ∈ dot_S4x4096_S512x4096_S4x512_1_1_0_0_n_n.lhsBatch by decide), dif_pos (show (0 : Fin S4x4096.rank) ∈ dot_S4x4096_S512x4096_S4x512_1_1_0_0_n_n.lhsNonContracting by decide)]
  rfl
theorem lhs_col (i : S4x512.Idx) (q : dot_S4x4096_S512x4096_S4x512_1_1_0_0_n_n.contr.Idx) :
    (dot_S4x4096_S512x4096_S4x512_1_1_0_0_n_n.lhsIdx i q 1).val = (q ⟨0, by decide⟩).val :=
  dot_S4x4096_S512x4096_S4x512_1_1_0_0_n_n.lhsIdx_val_of_single rfl i q
theorem rhs_row (i : S4x512.Idx) (q : dot_S4x4096_S512x4096_S4x512_1_1_0_0_n_n.contr.Idx) :
    (dot_S4x4096_S512x4096_S4x512_1_1_0_0_n_n.rhsIdx i q 0).val = (i 1).val := by
  unfold DotDims.rhsIdx
  rw [dif_neg (show ¬(0 : Fin S512x4096.rank) ∈ dot_S4x4096_S512x4096_S4x512_1_1_0_0_n_n.rhsBatch by decide), dif_pos (show (0 : Fin S512x4096.rank) ∈ dot_S4x4096_S512x4096_S4x512_1_1_0_0_n_n.rhsNonContracting by decide)]
  rfl
theorem rhs_col (i : S4x512.Idx) (q : dot_S4x4096_S512x4096_S4x512_1_1_0_0_n_n.contr.Idx) :
    (dot_S4x4096_S512x4096_S4x512_1_1_0_0_n_n.rhsIdx i q 1).val = (q ⟨0, by decide⟩).val :=
  dot_S4x4096_S512x4096_S4x512_1_1_0_0_n_n.rhsIdx_val_of_single rfl i q

/-- The matrix unit's product of the activation block with the weight block, into a zero accumulator, at (b, o):
    the dot product of activation row `b` with weight row `o`, the weights read signed and exactly. -/
theorem product_apply (x : Vec Ideal S4x4096 .f32) (w : Vec Ideal S512x4096 .i32) (b : Fin 4) (o : Fin 512) :
    matmul dot_S4x4096_S512x4096_S4x512_1_1_0_0_n_n none (truncf (F := Ideal) .bf16 x bitsLt_bf16_f32) (sitofp (F := Ideal) .bf16 w)
        (constant (F := Ideal) S4x512 .f32 0x00000000#32) (ix2 b o)
      = ∑ k : Fin 4096, x (ix2 b k) * (((w (ix2 o k)).toInt : ℝ) : EReal) := by
  show FloatOps.matmul dot_S4x4096_S512x4096_S4x512_1_1_0_0_n_n none (truncf (F := Ideal) .bf16 x bitsLt_bf16_f32) (sitofp (F := Ideal) .bf16 w)
        (constant (F := Ideal) S4x512 .f32 0x00000000#32) (ix2 b o) = _
  rw [Ideal.matmul_constant_zero_apply, ← Equiv.sum_comp (ValueIdx.contrEquiv1 dot_S4x4096_S512x4096_S4x512_1_1_0_0_n_n 4096 rfl rfl).symm]
  refine Finset.sum_congr rfl fun k _ => ?_
  have hk := ValueIdx.contrEquiv1_symm_val dot_S4x4096_S512x4096_S4x512_1_1_0_0_n_n 4096 rfl rfl k
  have el : dot_S4x4096_S512x4096_S4x512_1_1_0_0_n_n.lhsIdx (ix2 b o) ((ValueIdx.contrEquiv1 dot_S4x4096_S512x4096_S4x512_1_1_0_0_n_n 4096 rfl rfl).symm k) = ix2 b k := funext fun a => Fin.ext (by
    match a with
    | ⟨0, _⟩ => exact lhs_row _ _
    | ⟨1, _⟩ => exact (lhs_col _ _).trans hk)
  have er : dot_S4x4096_S512x4096_S4x512_1_1_0_0_n_n.rhsIdx (ix2 b o) ((ValueIdx.contrEquiv1 dot_S4x4096_S512x4096_S4x512_1_1_0_0_n_n 4096 rfl rfl).symm k) = ix2 o k := funext fun a => Fin.ext (by
    match a with
    | ⟨0, _⟩ => exact rhs_row _ _
    | ⟨1, _⟩ => exact (rhs_col _ _).trans hk)
  rw [el, er]
  rfl

/-- The body's value at (b, o): the dot product, times the scale row's column `o`, plus the bias row's column `o`. -/
theorem value_apply (x : Vec Ideal S4x4096 .f32) (w : Vec Ideal S512x4096 .i32) (s β : Vec Ideal S1x512 .f32) (b : Fin 4) (o : Fin 512) :
    k0_pay1 (F := Ideal) x w s β (ix2 b o)
      = (∑ k : Fin 4096, x (ix2 b k) * (((w (ix2 o k)).toInt : ℝ) : EReal)) * s (ix2 (0 : Fin 1) o) + β (ix2 (0 : Fin 1) o) := by
  unfold k0_pay1
  show matmul dot_S4x4096_S512x4096_S4x512_1_1_0_0_n_n none (truncf (F := Ideal) .bf16 x bitsLt_bf16_f32) (sitofp (F := Ideal) .bf16 w)
        (constant (F := Ideal) S4x512 .f32 0x00000000#32) (ix2 b o)
      * broadcastTo S4x512 (shapeCast S1x512 s shapeCasts_S1x512_S1x512) broadcasts_S1x512_S4x512 (ix2 b o)
      + broadcastTo S4x512 (shapeCast S1x512 β shapeCasts_S1x512_S1x512) broadcasts_S1x512_S4x512 (ix2 b o) = _
  rw [product_apply, broadcastTo_1b_ab_apply, broadcastTo_1b_ab_apply, shapeCast_self, shapeCast_self]

/-! ## The staged blocks as rows and columns of the argument arrays -/

variable (m : (ℓ : Loc nD τ sig) → Buf (Elt Ideal) ℓ)

/-- The three clipped input windows' block indices and cuts, point by point: weight rows 512·t …, all 4096 columns;
    the one row of the scale and of the bias, columns 512·t …; each cut at the array's 11008. -/
theorem in_block_facts : ∀ t : Fin cfg0.N,
    (win0_1.index t 0 = t.val ∧ win0_1.index t 1 = 0
      ∧ win0_1.xsize (grid0.coords t) 0 = min 512 (11008 - 512 * t.val) ∧ win0_1.xsize (grid0.coords t) 1 = 4096)
    ∧ (win0_2.index t 0 = 0 ∧ win0_2.index t 1 = t.val
      ∧ win0_2.xsize (grid0.coords t) 0 = 1 ∧ win0_2.xsize (grid0.coords t) 1 = min 512 (11008 - 512 * t.val))
    ∧ (win0_3.index t 0 = 0 ∧ win0_3.index t 1 = t.val
      ∧ win0_3.xsize (grid0.coords t) 0 = 1 ∧ win0_3.xsize (grid0.coords t) 1 = min 512 (11008 - 512 * t.val))
    ∧ (win0_0.index t 0 = 0 ∧ win0_0.index t 1 = 0) :=
  (by decide +kernel : ∀ t : Fin grid0.N,
    (win0_1.index t 0 = t.val ∧ win0_1.index t 1 = 0
      ∧ win0_1.xsize (grid0.coords t) 0 = min 512 (11008 - 512 * t.val) ∧ win0_1.xsize (grid0.coords t) 1 = 4096)
    ∧ (win0_2.index t 0 = 0 ∧ win0_2.index t 1 = t.val
      ∧ win0_2.xsize (grid0.coords t) 0 = 1 ∧ win0_2.xsize (grid0.coords t) 1 = min 512 (11008 - 512 * t.val))
    ∧ (win0_3.index t 0 = 0 ∧ win0_3.index t 1 = t.val
      ∧ win0_3.xsize (grid0.coords t) 0 = 1 ∧ win0_3.xsize (grid0.coords t) 1 = min 512 (11008 - 512 * t.val))
    ∧ (win0_0.index t 0 = 0 ∧ win0_0.index t 1 = 0))

/-- The activation block at any point is the whole activation matrix. -/
theorem act_apply (c : Dev nD) (t : Fin cfg0.N) (b : Fin 4) (k : Fin 4096) :
    (iblk m c 0 t : Vec Ideal S4x4096 .f32) (ix2 b k)
      = (m ((c : Thread nD τ).loc main_arg0) : S4x4096.Idx → EReal) (ix2 b k) := by
  obtain ⟨-, -, -, e0, e1⟩ := in_block_facts t
  unfold iblk
  rw [View.read_apply]
  show V m c main_arg0 _ = m (c.tc.loc main_arg0) _
  rw [V_main_arg0]
  congr 1
  funext a
  apply Fin.ext
  match a with
  | ⟨0, _⟩ => show win0_0.index t 0 * 4 + 1 * b.val = b.val; rw [e0]; omega
  | ⟨1, _⟩ => show win0_0.index t 1 * 4096 + 1 * k.val = k.val; rw [e1]; omega

/-- The weight block at point `t`, where it lies inside the array, is weight rows 512·t …. -/
theorem weight_apply (c : Dev nD) (t : Fin cfg0.N) (y : (win0_1.xblock (grid0.coords t)).Idx) (r : Fin 11008) (k : Fin 4096)
    (hr : r.val = 512 * t.val + (y 0).val) (hk : k.val = (y 1).val) :
    iblk m c 1 t y = (m ((c : Thread nD τ).loc main_arg1) : S11008x4096.Idx → BitVec 32) (ix2 r k) := by
  obtain ⟨⟨e0, e1, -, -⟩, -, -, -⟩ := in_block_facts t
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * (y 0).val = r.val; rw [e0, hr]; omega
  | ⟨1, _⟩ => show win0_1.index t 1 * 4096 + 1 * (y 1).val = k.val; rw [e1, hk]; omega

/-- The weight buffer as the body finds it — the block inside the array, anything past its end — read at a row
    inside the array. -/
theorem weight_fill_apply (c : Dev nD) (t : Fin cfg0.N) (d : S512x4096.Idx → BitVec 32) (o : Fin 512) (k : Fin 4096)
    (r : Fin 11008) (hr : r.val = 512 * t.val + o.val) :
    win0_1.fill (grid0.coords t) d (iblk m c 1 t) (ix2 o k)
      = (m ((c : Thread nD τ).loc main_arg1) : S11008x4096.Idx → BitVec 32) (ix2 r k) := by
  obtain ⟨⟨-, -, x0, x1⟩, -, -, -⟩ := in_block_facts t
  have hm : win0_1.moved (grid0.coords t) (ix2 o k) = true := (win0_1.moved_iff _ _).mpr fun a => by
    match a with
    | ⟨0, _⟩ => show o.val < win0_1.xsize (grid0.coords t) 0; rw [x0]; have := r.isLt; have := o.isLt; omega
    | ⟨1, _⟩ => show k.val < win0_1.xsize (grid0.coords t) 1; rw [x1]; exact k.isLt
  unfold Pipeline.Window.fill
  rw [dif_pos hm]
  exact weight_apply m c t _ r k hr rfl

/-- The scale row the region finds is the scale vector with a unit axis in front (the host's reshape). -/
theorem V_scale (c : Dev nD) : (V m c main_v0 : S1x11008.Idx → EReal)
    = shapeCast S1x11008 (m ((c : Thread nD τ).loc main_arg2) : S11008.Idx → EReal) shapeCasts_S11008_S1x11008 := by
  dsimp only [Gen.V, Gen.hostOps0]
  after_results
  rfl
/-- The bias row likewise. -/
theorem V_bias (c : Dev nD) : (V m c main_v1 : S1x11008.Idx → EReal)
    = shapeCast S1x11008 (m ((c : Thread nD τ).loc main_arg3) : S11008.Idx → EReal) shapeCasts_S11008_S1x11008 := by
  dsimp only [Gen.V, Gen.hostOps0]
  after_results
  rfl

/-- The scale block at point `t`, where it lies inside the array, is scales 512·t …. -/
theorem scale_apply (c : Dev nD) (t : Fin cfg0.N) (y : (win0_2.xblock (grid0.coords t)).Idx) (o' : Fin 11008)
    (ho : o'.val = 512 * t.val + (y 1).val) :
    iblk m c 2 t y = (m ((c : Thread nD τ).loc main_arg2) : S11008.Idx → EReal) (ix1 o') := by
  obtain ⟨-, ⟨e0, e1, x0, -⟩, -, -⟩ := in_block_facts t
  have h0 : (y 0).val < win0_2.xsize (grid0.coords t) 0 := (y 0).isLt
  rw [x0] at h0
  unfold iblk
  rw [View.read_apply]
  show V m c main_v0 _ = _
  rw [V_scale]
  refine (congrArg (shapeCast S1x11008 (m ((c : Thread nD τ).loc main_arg2) : S11008.Idx → EReal) shapeCasts_S11008_S1x11008)
    (?_ : _ = ix2 (0 : Fin 1) o')).trans (shapeCast_a_1a_apply _ _ 0 o')
  funext a
  apply Fin.ext
  match a with
  | ⟨0, _⟩ => show win0_2.index t 0 * 1 + 1 * (y 0).val = 0; rw [e0]; omega
  | ⟨1, _⟩ => show win0_2.index t 1 * 512 + 1 * (y 1).val = o'.val; rw [e1, ho]; omega

/-- The bias block likewise. -/
theorem bias_apply (c : Dev nD) (t : Fin cfg0.N) (y : (win0_3.xblock (grid0.coords t)).Idx) (o' : Fin 11008)
    (ho : o'.val = 512 * t.val + (y 1).val) :
    iblk m c 3 t y = (m ((c : Thread nD τ).loc main_arg3) : S11008.Idx → EReal) (ix1 o') := by
  obtain ⟨-, -, ⟨e0, e1, x0, -⟩, -⟩ := in_block_facts t
  have h0 : (y 0).val < win0_3.xsize (grid0.coords t) 0 := (y 0).isLt
  rw [x0] at h0
  unfold iblk
  rw [View.read_apply]
  show V m c main_v1 _ = _
  rw [V_bias]
  refine (congrArg (shapeCast S1x11008 (m ((c : Thread nD τ).loc main_arg3) : S11008.Idx → EReal) shapeCasts_S11008_S1x11008)
    (?_ : _ = ix2 (0 : Fin 1) o')).trans (shapeCast_a_1a_apply _ _ 0 o')
  funext a
  apply Fin.ext
  match a with
  | ⟨0, _⟩ => show win0_3.index t 0 * 1 + 1 * (y 0).val = 0; rw [e0]; omega
  | ⟨1, _⟩ => show win0_3.index t 1 * 512 + 1 * (y 1).val = o'.val; rw [e1, ho]; omega

/-- The scale buffer as the body finds it, read at a column inside the array. -/
theorem scale_fill_apply (c : Dev nD) (t : Fin cfg0.N) (d : S1x512.Idx → EReal) (o : Fin 512) (o' : Fin 11008)
    (ho : o'.val = 512 * t.val + o.val) :
    win0_2.fill (grid0.coords t) d (iblk m c 2 t) (ix2 (0 : Fin 1) o)
      = (m ((c : Thread nD τ).loc main_arg2) : S11008.Idx → EReal) (ix1 o') := by
  obtain ⟨-, ⟨-, -, x0, x1⟩, -, -⟩ := in_block_facts t
  have hm : win0_2.moved (grid0.coords t) (ix2 (0 : Fin 1) o) = true := (win0_2.moved_iff _ _).mpr fun a => by
    match a with
    | ⟨0, _⟩ => show 0 < win0_2.xsize (grid0.coords t) 0; rw [x0]; exact Nat.one_pos
    | ⟨1, _⟩ => show o.val < win0_2.xsize (grid0.coords t) 1; rw [x1]; have := o'.isLt; have := o.isLt; omega
  unfold Pipeline.Window.fill
  rw [dif_pos hm]
  exact scale_apply m c t _ o' ho

/-- The bias buffer likewise. -/
theorem bias_fill_apply (c : Dev nD) (t : Fin cfg0.N) (d : S1x512.Idx → EReal) (o : Fin 512) (o' : Fin 11008)
    (ho : o'.val = 512 * t.val + o.val) :
    win0_3.fill (grid0.coords t) d (iblk m c 3 t) (ix2 (0 : Fin 1) o)
      = (m ((c : Thread nD τ).loc main_arg3) : S11008.Idx → EReal) (ix1 o') := by
  obtain ⟨-, -, ⟨-, -, x0, x1⟩, -⟩ := in_block_facts t
  have hm : win0_3.moved (grid0.coords t) (ix2 (0 : Fin 1) o) = true := (win0_3.moved_iff _ _).mpr fun a => by
    match a with
    | ⟨0, _⟩ => show 0 < win0_3.xsize (grid0.coords t) 0; rw [x0]; exact Nat.one_pos
    | ⟨1, _⟩ => show o.val < win0_3.xsize (grid0.coords t) 1; rw [x1]; have := o'.isLt; have := o.isLt; omega
  unfold Pipeline.Window.fill
  rw [dif_pos hm]
  exact bias_apply m c t _ o' ho

/-- Block `t` of an output-shaped array, cut at the array's end, is its columns 512·t …. -/
theorem out_apply (c : Dev nD) (A : Buf (Elt Ideal) ((c : Thread nD τ).loc main_v2)) (t : Fin cfg0.N)
    (j : (win0_4.xblock (grid0.coords t)).Idx) (b : Fin 4) (o' : Fin 11008)
    (hb : b.val = (j 0).val) (ho : o'.val = 512 * t.val + (j 1).val) :
    (win0_4.blk t).view.read (Elt Ideal) A j = (A : S4x11008.Idx → EReal) (ix2 b o') := by
  obtain ⟨e0, e1, -, -⟩ := out_block_facts t
  rw [View.read_apply]
  show A _ = A _
  congr 1
  funext a
  apply Fin.ext
  match a with
  | ⟨0, _⟩ => show win0_4.index t 0 * 4 + 1 * (j 0).val = b.val; rw [e0, hb]; omega
  | ⟨1, _⟩ => show win0_4.index t 1 * 512 + 1 * (j 1).val = o'.val; rw [e1, ho]; omega

/-! ## The output block at every point -/

/-- The array the output ends at: the quantized linear layer of the four arguments. -/
def result (c : Dev nD) : Buf (Elt Ideal) ((c : Thread nD τ).loc main_v2) :=
  Cert.QuantLinear.scaledDot (m ((c : Thread nD τ).loc main_arg0)) (m ((c : Thread nD τ).loc main_arg1))
    (m ((c : Thread nD τ).loc main_arg2)) (m ((c : Thread nD τ).loc main_arg3))

/-- At every point, whatever fills the three clipped buffers past the arrays' ends, the part of the body's value
    inside the array is block `t` of `result`: entry (b, o) of it reads weight row 512·t + o and column 512·t + o of
    the scales and the bias, all inside their arrays when column 512·t + o of the output is. -/
theorem block_value (c : Dev nD) (t : Fin cfg0.N) (d1 : S512x4096.Idx → Elt Ideal .i32) (d2 d3 : S1x512.Idx → Elt Ideal .f32) :
    win0_4.cut (grid0.coords t) (valueAt m c t d1 d2 d3) = (win0_4.blk t).view.read (Elt Ideal) (result m c) := by
  funext j
  obtain ⟨-, -, x0, x1⟩ := out_block_facts t
  have hj0 : (j 0).val < win0_4.xsize (grid0.coords t) 0 := (j 0).isLt
  have hj1 : (j 1).val < win0_4.xsize (grid0.coords t) 1 := (j 1).isLt
  rw [x0] at hj0
  rw [x1] at hj1
  obtain ⟨b, hb⟩ : ∃ b : Fin 4, b.val = (j 0).val := ⟨⟨(j 0).val, hj0⟩, rfl⟩
  obtain ⟨o, ho⟩ : ∃ o : Fin 512, o.val = (j 1).val := ⟨⟨(j 1).val, by omega⟩, rfl⟩
  obtain ⟨o', ho'⟩ : ∃ o' : Fin 11008, o'.val = 512 * t.val + (j 1).val := ⟨⟨512 * t.val + (j 1).val, by omega⟩, rfl⟩
  have ho'' : o'.val = 512 * t.val + o.val := by rw [ho', ho]
  rw [out_apply c (result m c) t j b o' hb ho']
  show valueAt m c t d1 d2 d3 (win0_4.xinj (grid0.coords t) j) = _
  have hx : win0_4.xinj (grid0.coords t) j = ix2 b o := funext fun a => Fin.ext (by
    match a with
    | ⟨0, _⟩ => show (j 0).val = b.val; exact hb.symm
    | ⟨1, _⟩ => show (j 1).val = o.val; exact ho.symm)
  rw [hx]
  unfold valueAt
  rw [value_apply, scale_fill_apply m c t d2 o o' ho'', bias_fill_apply m c t d3 o o' ho'']
  unfold result
  rw [Cert.QuantLinear.scaledDot_apply]
  refine congrArg (fun S => S * _ + _) (Finset.sum_congr rfl fun k _ => ?_)
  rw [act_apply, weight_fill_apply m c t d1 o k o' ho'']

end Cert.KernelIdeal.IdealValue

end
-- ==== Proof.LibScaleAcrossSum.lean ====
/-
  Moving a real scale across a finite sum of products, on the extended reals.

  For real activations x k, integer weights q k and a real scale s,
      (∑ₖ x k · q k) · s = ∑ₖ x k · (q k · s).
  Every factor is the image of a real number, so both sides are images of real sums, and in ℝ the scale
  distributes over the sum and the products reassociate. The hypothesis that x and s are real is what makes
  this true: with an infinite factor the termwise products on the right could meet 0 · ∞ where the left
  does not.
-/
import Idealize.ShloMosaic.PureOps.Ideal

noncomputable section

open scoped BigOperators

namespace Cert.QuantLinear

/-- The image in the extended reals of a finite real sum is the sum of the images. -/
theorem coe_sum {ι : Type} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A real scale applied after a sum of products with integer weights equals the sum of the products with
    each weight scaled first, when the other factors are real too. -/
theorem sum_mul_scale {ι : Type} [Fintype ι] (x : ι → EReal) (q : ι → ℤ) (s : EReal)
    (hx : ∀ k, ∃ r : ℝ, x k = (r : EReal)) (hs : ∃ r : ℝ, s = (r : EReal)) :
    (∑ k, x k * ((q k : ℝ) : EReal)) * s = ∑ k, x k * (((q k : ℝ) : EReal) * s) := by
  choose xr hxr using hx
  obtain ⟨sr, rfl⟩ := hs
  simp only [hxr, ← EReal.coe_mul, ← coe_sum]
  congr 1
  rw [Finset.sum_mul]
  exact Finset.sum_congr rfl fun k _ => mul_assoc _ _ _

end Cert.QuantLinear

end
-- ==== Proof.RefValue.lean ====
import proofs.«109778_j57561151701240_2_alg».proof.Proof.Gen.ReferenceIdeal.Run
import proofs.«109778_j57561151701240_2_alg».proof.Proof.Gen.ReferenceIdeal.Read
import proofs.«109778_j57561151701240_2_alg».proof.Proof.LinearSpec
import proofs.«109778_j57561151701240_2_alg».proof.Proof.LibScaleAcrossSum
/-
  The reference computes the quantized linear layer.

  The reference converts the integer weights to floats, multiplies each weight q[o,k] by its channel's
  scale s[o] (the scale broadcast along k), contracts the activations against the scaled weights over k,
  and adds the bias broadcast along the rows:
      out[b,o] = ∑ₖ x[b,k] · (q[o,k] · s[o]) + bias[o].
  Read at one entry (b, o) this is the sum with each weight scaled first; with real activations and a real
  scale, moving the scale across the sum gives (∑ₖ x[b,k] · q[o,k]) · s[o] + bias[o], the specification.
-/

noncomputable section

namespace Cert.ReferenceIdeal.RefValue

open Cert.ReferenceIdeal Cert.ReferenceIdeal.Read Idealize.ShloMosaic Idealize.ShloMosaic.ValueIdx Idealize.SL.Sem

/-- With real activations and real scales, the reference's result is the specification's function of the
    four argument arrays. -/
theorem ref_eq (x : (⟨S4x4096, .f32⟩ : BufTy).Contents (Elt Ideal)) (q : (⟨S11008x4096, .i32⟩ : BufTy).Contents (Elt Ideal))
    (s bias : (⟨S11008, .f32⟩ : BufTy).Contents (Elt Ideal))
    (hx : ∀ i, ∃ r : ℝ, x i = (r : EReal)) (hs : ∀ i, ∃ r : ℝ, s i = (r : EReal)) :
    val_main_v7 (F := Ideal) x q s bias = Cert.QuantLinear.scaledDot x q s bias := by
  funext i
  -- the entry (b, o)
  obtain ⟨b, o, rfl⟩ : ∃ (b : Fin 4) (o : Fin 11008), i = ix2 b o := ⟨i 0, i 1, eq_ix2 i⟩
  -- the contraction reads x at (b, k) and the scaled weights at (o, k)
  have e_l : ∀ k : Fin 4096, lidx_main_v4 (ix2 b o) k = ix2 b k := fun k =>
    funext fun a => Fin.ext (by match a with | ⟨0, _⟩ => rfl | ⟨1, _⟩ => rfl)
  have e_r : ∀ k : Fin 4096, ridx_main_v4 (ix2 b o) k = ix2 o k := fun k =>
    funext fun a => Fin.ext (by match a with | ⟨0, _⟩ => rfl | ⟨1, _⟩ => rfl)
  -- the two broadcasts of the scale read s at o, whatever k; the two of the bias read bias at o, whatever b
  have e_s : ∀ k : Fin 4096, idx_main_v1 (idx_main_v2 (ix2 o k)) = ix1 o := fun k =>
    funext fun a => Fin.ext (by match a with | ⟨0, _⟩ => rfl)
  have e_b : idx_main_v5 (idx_main_v6 (ix2 b o)) = ix1 o :=
    funext fun a => Fin.ext (by match a with | ⟨0, _⟩ => rfl)
  -- one scaled weight: the integer read signed and exactly, times its channel's scale
  have term : ∀ k : Fin 4096, val_main_v3 (F := Ideal) q s (ix2 o k)
      = (((q (ix2 o k)).toInt : ℝ) : EReal) * s (ix1 o) := fun k => by
    rw [val_main_v3_apply, val_main_v0_apply, val_main_v2_apply, val_main_v1_apply, e_s k]
    rfl
  rw [val_main_v7_apply, val_main_v4_apply, val_main_v6_apply, val_main_v5_apply, e_b,
    Cert.QuantLinear.scaledDot_apply, Ideal.addf_def]
  simp only [e_l, e_r, term]
  -- ∑ₖ x[b,k] · (q[o,k] · s[o]) = (∑ₖ x[b,k] · q[o,k]) · s[o], the factors being real
  rw [Cert.QuantLinear.sum_mul_scale (fun k : Fin 4096 => x (ix2 b k)) (fun k => (q (ix2 o k)).toInt) (s (ix1 o))
    (fun k => hx (ix2 b k)) (hs (ix1 o))]

end Cert.ReferenceIdeal.RefValue

end
-- ==== Proof.FiniteInputs.lean ====
/-
  From the precondition to real-valued arguments.

  The precondition is three tests joined by "and": every |x[b,k]| < +∞, every |s[o]| < +∞, every |bias[o]| < +∞,
  each an "and" over all the elements of its array. When the whole is true every element passes its test, and an
  extended real v with max v (-v) < +∞ is neither +∞ (v itself is below +∞) nor -∞ (its negation is below +∞),
  so it is a real number. The word 0x7F800000 is the single-precision pattern of +∞: all-ones exponent, zero
  significand, sign clear.
-/
import proofs.«109778_j57561151701240_2_alg».proof.Pre_finite_inputs
import Idealize.ShloMosaic.Lib.ReduceAll
import Idealize.ShloMosaic.Lib.ValueIdx
import Idealize.ShloMosaic.Lib.Pipeline.Value

noncomputable section

namespace Cert.QuantLinear.FiniteInputs

open Idealize.ShloMosaic Idealize.ShloMosaic.ValueIdx Cert.Pre_finite_inputs

/-- The scalar shape has one index. -/
instance : Subsingleton S_.Idx := ⟨fun a b => funext fun d => d.elim0⟩

/-- The single-precision pattern with all-ones exponent and zero significand denotes +∞. -/
theorem inf_word : Ideal.ofBits .f32 0x7F800000#32 = (⊤ : EReal) := by
  simp [Ideal.ofBits, Ideal.ieee]

/-- An extended real whose absolute value is strictly below +∞ is a real number. -/
theorem real_of_abs_lt_inf (v : EReal)
    (h : Ideal.cmp .olt (max v (-v)) (Ideal.ofBits .f32 0x7F800000#32) = 1#1) : ∃ r : ℝ, v = (r : EReal) := by
  rw [inf_word] at h
  have hd : BitVec.ofBool (decide (max v (-v) < ⊤)) = 1#1 := h
  have hlt : max v (-v) < ⊤ := by
    by_contra hn
    rw [decide_eq_false hn] at hd
    exact absurd hd (by decide)
  have h1 : v < ⊤ := lt_of_le_of_lt (le_max_left _ _) hlt
  have h2 : -v < ⊤ := lt_of_le_of_lt (le_max_right _ _) hlt
  induction v using EReal.rec with
  | bot => exact absurd h2 (by simp)
  | coe r => exact ⟨r, rfl⟩
  | top => exact absurd h1 (lt_irrefl _)

/-- Under the precondition every activation, every scale and every bias is a real number. -/
theorem real_of_pre [Cert.Pre_finite_inputs.Facts] (x : FVec Ideal S4x4096 .f32) (q : IVec S11008x4096 32)
    (s bias : FVec Ideal S11008 .f32)
    (h : Cert.Pre_finite_inputs.fn (F := Ideal) x q s bias = fun _ => 1#1) :
    (∀ i, ∃ r : ℝ, x i = (r : EReal)) ∧ (∀ i, ∃ r : ℝ, s i = (r : EReal)) ∧ (∀ i, ∃ r : ℝ, bias i = (r : EReal)) := by
  -- the one element of the result, as the conjunction of the three tests
  have h0 := congrFun h ix0
  dsimp only [fn] at h0
  obtain ⟨h01, hb⟩ := IntOp.andi_eq_one.1 h0
  obtain ⟨hx, hs⟩ := IntOp.andi_eq_one.1 h01
  -- each test is an "and" over all elements; read it at the element i, where it compares |v i| with +∞
  refine ⟨fun i => ?_, fun i => ?_, fun i => ?_⟩
  · have e := Host.reduce_andi_all _ _ _ _ ix0 hx i
    rw [cmpf_apply, broadcastInDim_apply _ _ _ i ix0 (fun a => a.elim0)] at e
    exact real_of_abs_lt_inf (x i) e
  · have e := Host.reduce_andi_all _ _ _ _ ix0 hs i
    rw [cmpf_apply, broadcastInDim_apply _ _ _ i ix0 (fun a => a.elim0)] at e
    exact real_of_abs_lt_inf (s i) e
  · have e := Host.reduce_andi_all _ _ _ _ ix0 hb i
    rw [cmpf_apply, broadcastInDim_apply _ _ _ i ix0 (fun a => a.elim0)] at e
    exact real_of_abs_lt_inf (bias i) e

end Cert.QuantLinear.FiniteInputs

end
-- ==== Proof.RefRun.lean ====
/-
  The reference's run, with its result named by the specification.

  Every execution of the reference terminates with its result array at the composed term of its operations
  and its four arguments unchanged (the generated run). That term is the specification's function of the
  arguments whenever the activations and the scales are real numbers, and under the precondition they are.
  Dropping the result gives the frame: the reference runs and leaves its arguments unchanged.
-/
import proofs.«109778_j57561151701240_2_alg».proof.Proof.RefValue
import proofs.«109778_j57561151701240_2_alg».proof.Proof.FiniteInputs
import proofs.«109778_j57561151701240_2_alg».proof.Proof.Gen.Pre_finite_inputs
import proofs.«109778_j57561151701240_2_alg».proof.Defs

noncomputable section

namespace Cert.ReferenceIdeal.RefValue

open Cert.ReferenceIdeal Cert.ReferenceIdeal.Gen Idealize.ShloMosaic Idealize.ShloMosaic.TcCoe Idealize.SL.Sem

/-- The reference runs and its argument arrays end unchanged. -/
theorem frame_ref : Cert.frame_ReferenceIdeal := fun m ρ _ =>
  (θ_run Cert.ReferenceIdeal.defs _ _).mono (fun _ h c => (h c).2) (Cert.ReferenceIdeal.Value.run (F := Ideal) m ρ)

/-- From a memory whose activations and scales are real numbers, the reference ends with its result at the
    specification's function of the arguments, and the arguments unchanged. -/
theorem ref_run_of_real (m' : (ℓ : Loc nD τ sig) → Buf (Elt Ideal) ℓ) (ρ' : Dev nD → PrngReg)
    (hx : ∀ (c : Dev nD) (i : S4x4096.Idx), ∃ r : ℝ, m' ((c.tc : Thread nD τ).loc main_arg0) i = (r : EReal))
    (hs : ∀ (c : Dev nD) (i : S11008.Idx), ∃ r : ℝ, m' ((c.tc : Thread nD τ).loc main_arg2) i = (r : EReal)) :
    θ_run defs (onTc (τ := τ) (main (F := Ideal))) ⟨m', fun _ => 0, ρ'⟩ fun r => ∀ c : Dev nD,
      r.2.mem ((c.tc : Thread nD τ).loc main_v7)
          = Cert.QuantLinear.scaledDot (m' ((c.tc : Thread nD τ).loc main_arg0)) (m' ((c.tc : Thread nD τ).loc main_arg1))
              (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  (θ_run defs _ _).mono (fun _ h c => ⟨(h c).1.trans ((Read.val_main_v7_eq _ _ _ _).trans (ref_eq _ _ _ _ (hx c) (hs c))), (h c).2⟩)
    (Cert.ReferenceIdeal.Value.run (F := Ideal) m' ρ')

/-- The same from the precondition, which makes the activations and the scales real. -/
theorem ref_run (m' : (ℓ : Loc nD τ sig) → Buf (Elt Ideal) ℓ) (ρ' : Dev nD → PrngReg) (hpre : Cert.Pre_ReferenceIdeal m') :
    θ_run defs (onTc (τ := τ) (main (F := Ideal))) ⟨m', fun _ => 0, ρ'⟩ fun r => ∀ c : Dev nD,
      r.2.mem ((c.tc : Thread nD τ).loc main_v7)
          = Cert.QuantLinear.scaledDot (m' ((c.tc : Thread nD τ).loc main_arg0)) (m' ((c.tc : Thread nD τ).loc main_arg1))
              (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  ref_run_of_real m' ρ'
    (fun c => (Cert.QuantLinear.FiniteInputs.real_of_pre _ _ _ _ (hpre c)).1)
    (fun c => (Cert.QuantLinear.FiniteInputs.real_of_pre _ _ _ _ (hpre c)).2.1)

end Cert.ReferenceIdeal.RefValue

end
-- ==== Proof.lean ====
/-
  A quantized linear layer on the matrix unit against its plain reference: for activations x (4 × 4096), integer
  weights q (11008 × 4096), and one scale s[o] and one bias β[o] per output channel,
      out[b, o] = (∑ₖ x[b, k] · q[o, k]) · s[o] + β[o].

  The kernel walks the 11008 output channels in 22 blocks of 512 (the last block overhangs the arrays by 256 and
  is cut at their end), multiplies the activation matrix with each weight block, and applies scale and bias after
  the product. The reference scales every weight first and contracts afterwards:
  ∑ₖ x[b, k] · (q[o, k] · s[o]) + β[o]. Read on the extended reals — a change of float format the identity, an
  integer read exactly — the two are the same function of the arguments whenever the activations and the scales
  are real numbers, which the precondition says: then the scale moves across the sum by distributivity in ℝ.

  The five claims: each of the three programs terminates, faults nowhere and leaves its arguments unchanged (the
  word-level kernel with nothing said of its output; the idealized kernel as part of its value run; the
  reference from its run); the idealization rewrote nothing, so it preserves trivially; and from memories agreeing
  on the arguments the idealized kernel and the idealized reference end with the same output array, the function
  above of the four arguments.
-/
import proofs.«109778_j57561151701240_2_alg».proof.Defs
import proofs.«109778_j57561151701240_2_alg».proof.Proof.Gen.Kernel
import proofs.«109778_j57561151701240_2_alg».proof.Proof.Gen.KernelIdeal
import proofs.«109778_j57561151701240_2_alg».proof.Proof.Gen.ReferenceIdeal
import proofs.«109778_j57561151701240_2_alg».proof.Proof.Gen.Pre_finite_inputs
import proofs.«109778_j57561151701240_2_alg».proof.Proof.FrameBits
import proofs.«109778_j57561151701240_2_alg».proof.Proof.ValueIdeal
import proofs.«109778_j57561151701240_2_alg».proof.Proof.RefRun
import Idealize.ShloMosaic.Adequacy
import Idealize.ShloMosaic.Init

noncomputable section

namespace Cert.Proof

open Idealize.ShloMosaic Idealize.SL.Sem

/-- The word-level kernel runs and leaves its four arguments unchanged. -/
theorem frame_kernel : Cert.frame_Kernel := fun m ρ _ => Cert.Kernel.Body.frame m ρ

/-- The idealized kernel runs and leaves its four arguments unchanged: its value run with the output dropped. -/
theorem frame_ideal : Cert.frame_KernelIdeal := fun m ρ _ =>
  (θ_run Cert.KernelIdeal.defs _ _).mono (fun _ h c => (h c).2)
    (Cert.KernelIdeal.Body.run m ρ (Cert.KernelIdeal.IdealValue.result m) (Cert.KernelIdeal.IdealValue.block_value m))

/-- The idealization rewrote no operation. -/
theorem preserves : Cert.preserves_Kernel_KernelIdeal := trivial

/-- From memories that agree on the arguments, both idealized programs end with the output at the quantized
    linear layer of the arguments: the kernel's 22 cut blocks tile it, and the reference's term is that function
    because the precondition makes the activations and the scales real. -/
theorem algebraic : Cert.algebraic_KernelIdeal_ReferenceIdeal := by
  intro m ρ m' ρ' hpre hagree
  refine ⟨fun c => Cert.KernelIdeal.IdealValue.result m c,
    Cert.KernelIdeal.Body.run m ρ (Cert.KernelIdeal.IdealValue.result m) (Cert.KernelIdeal.IdealValue.block_value m), ?_⟩
  have hreal := fun c => Cert.QuantLinear.FiniteInputs.real_of_pre _ _ _ _ (hpre c)
  refine (θ_run Cert.ReferenceIdeal.defs _ _).mono (fun _ h c => ⟨(h c).1.trans ?_, (h c).2⟩)
    (Cert.ReferenceIdeal.RefValue.ref_run_of_real m' ρ'
      (fun c => by rw [(hagree c).1]; exact (hreal c).1)
      (fun c => by rw [(hagree c).2.2.1]; exact (hreal c).2.1))
  rw [(hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, Cert.ReferenceIdeal.RefValue.frame_ref, preserves, algebraic⟩

end Cert.Proof

end
